-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S64x64 : Shape := ⟨2, ![64, 64]⟩
abbrev S2x1048576 : Shape := ⟨2, ![2, 1048576]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S65536x64 .f32) (main_arg1 : FVec F S65536x64 .f32) (main_arg2 : FVec F S64x64 .f32) (main_arg3 : IVec S2x1048576 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S65536x64 : Shape := ⟨2, ![65536, 64]⟩
abbrev S64x64 : Shape := ⟨2, ![64, 64]⟩
abbrev S2x1048576 : Shape := ⟨2, ![2, 1048576]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x64 : Shape := ⟨2, ![1114112, 64]⟩
abbrev S8192x64 : Shape := ⟨2, ![8192, 64]⟩

abbrev nBuf : Space → Nat
  | .hbm => 62
  | .vmem => 7
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S64x64, .f32⟩
  | .hbm, ⟨3, _⟩ => ⟨S2x1048576, .i32⟩
  | .hbm, ⟨4, _⟩ => ⟨S65536, .i32⟩
  | .hbm, ⟨5, _⟩ => ⟨S1x1048576, .i32⟩
  | .hbm, ⟨6, _⟩ => ⟨S1048576, .i32⟩
  | .hbm, ⟨7, _⟩ => ⟨S1114112, .i32⟩
  | .hbm, ⟨8, _⟩ => ⟨S1x1048576, .i32⟩
  | .hbm, ⟨9, _⟩ => ⟨S1048576, .i32⟩
  | .hbm, ⟨10, _⟩ => ⟨S1114112, .i32⟩
  | .hbm, ⟨11, _⟩ => ⟨S_, .f32⟩
  | .hbm, ⟨12, _⟩ => ⟨S1114112, .f32⟩
  | .hbm, ⟨13, _⟩ => ⟨S_, .f32⟩
  | .hbm, ⟨14, _⟩ => ⟨S65536, .f32⟩
  | .hbm, ⟨15, _⟩ => ⟨S1114112x1, .i32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S_, .i32⟩
  | .hbm, ⟨21, _⟩ => ⟨S1114112, .i32⟩
  | .hbm, ⟨22, _⟩ => ⟨S1114112, .i1⟩
  | .hbm, ⟨23, _⟩ => ⟨S_, .i32⟩
  | .hbm, ⟨24, _⟩ => ⟨S1114112, .i32⟩
  | .hbm, ⟨25, _⟩ => ⟨S1114112, .i32⟩
  | .hbm, ⟨26, _⟩ => ⟨S1114112, .i32⟩
  | .hbm, ⟨27, _⟩ => ⟨S1114112x1, .i32⟩
  | .hbm, ⟨28, _⟩ => ⟨S1114112, .f32⟩
  | .hbm, ⟨29, _⟩ => ⟨S_, .f32⟩
  | .hbm, ⟨30, _⟩ => ⟨S1114112, .f32⟩
  | .hbm, ⟨31, _⟩ => ⟨S1114112, .f32⟩
  | .hbm, ⟨32, _⟩ => ⟨S_, .i32⟩
  | .hbm, ⟨33, _⟩ => ⟨S1114112, .i32⟩
  | .hbm, ⟨34, _⟩ => ⟨S1114112, .i1⟩
  | .hbm, ⟨35, _⟩ => ⟨S_, .i32⟩
  | .hbm, ⟨36, _⟩ => ⟨S1114112, .i32⟩
  | .hbm, ⟨37, _⟩ => ⟨S1114112, .i32⟩
  | .hbm, ⟨38, _⟩ => ⟨S1114112, .i32⟩
  | .hbm, ⟨39, _⟩ => ⟨S1114112x1, .i32⟩
  | .hbm, ⟨40, _⟩ => ⟨S1114112, .f32⟩
  | .hbm, ⟨41, _⟩ => ⟨S_, .f32⟩
  | .hbm, ⟨42, _⟩ => ⟨S1114112, .f32⟩
  | .hbm, ⟨43, _⟩ => ⟨S1114112, .f32⟩
  | .hbm, ⟨44, _⟩ => ⟨S1114112, .f32⟩
  | .hbm, ⟨45, _⟩ => ⟨S_, .i32⟩
  | .hbm, ⟨46, _⟩ => ⟨S1114112, .i32⟩
  | .hbm, ⟨47, _⟩ => ⟨S1114112, .i1⟩
  | .hbm, ⟨48, _⟩ => ⟨S_, .i32⟩
  | .hbm, ⟨49, _⟩ => ⟨S1114112, .i32⟩
  | .hbm, ⟨50, _⟩ => ⟨S1114112, .i32⟩
  | .hbm, ⟨51, _⟩ => ⟨S1114112, .i32⟩
  | .hbm, ⟨52, _⟩ => ⟨S1114112x1, .i32⟩
  | .hbm, ⟨53, _⟩ => ⟨S1114112x64, .f32⟩
  | .hbm, ⟨54, _⟩ => ⟨S1114112x1, .f32⟩
  | .hbm, ⟨55, _⟩ => ⟨S1114112x64, .f32⟩
  | .hbm, ⟨56, _⟩ => ⟨S1114112x64, .f32⟩
  | .hbm, ⟨57, _⟩ => ⟨S_, .f32⟩
  | .hbm, ⟨58, _⟩ => ⟨S65536x64, .f32⟩
  | .hbm, ⟨59, _⟩ => ⟨S1114112x1, .i32⟩
  | .hbm, ⟨60, _⟩ => ⟨S65536x64, .f32⟩
  | .hbm, ⟨61, _⟩ => ⟨S65536x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .f32⟩
  | .local _ .vmem, ⟨5, _⟩ => ⟨S8192x64, .f32⟩
  | .local _ .vmem, ⟨6, _⟩ => ⟨S8192x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S65536x64.size a
  hwx0_1 : ∀ i : grid0.Coords, EltTy.bits .f32 = 32 ∨ (Rect.block (s := S65536x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S65536x64.size a
  hwx0_3 : ∀ i : grid0.Coords, EltTy.bits .f32 = 32 ∨ (Rect.block (s := S65536x64) S8192x64.size (cc0_transform_3 i) (hinb0_3 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v44) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S64x64 : Shape := ⟨2, ![64, 64]⟩
abbrev S2x1048576 : Shape := ⟨2, ![2, 1048576]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x64 : Shape := ⟨2, ![1114112, 64]⟩

abbrev nBuf : Space → Nat
  | .hbm => 76
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S64x64, .f32⟩
  | .hbm, ⟨3, _⟩ => ⟨S2x1048576, .i32⟩
  | .hbm, ⟨4, _⟩ => ⟨S65536, .i32⟩
  | .hbm, ⟨5, _⟩ => ⟨S1x1048576, .i32⟩
  | .hbm, ⟨6, _⟩ => ⟨S1048576, .i32⟩
  | .hbm, ⟨7, _⟩ => ⟨S1114112, .i32⟩
  | .hbm, ⟨8, _⟩ => ⟨S1x1048576, .i32⟩
  | .hbm, ⟨9, _⟩ => ⟨S1048576, .i32⟩
  | .hbm, ⟨10, _⟩ => ⟨S1114112, .i32⟩
  | .hbm, ⟨11, _⟩ => ⟨S_, .f32⟩
  | .hbm, ⟨12, _⟩ => ⟨S1114112, .f32⟩
  | .hbm, ⟨13, _⟩ => ⟨S_, .f32⟩
  | .hbm, ⟨14, _⟩ => ⟨S65536, .f32⟩
  | .hbm, ⟨15, _⟩ => ⟨S1114112x1, .i32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S_, .i32⟩
  | .hbm, ⟨21, _⟩ => ⟨S1114112, .i32⟩
  | .hbm, ⟨22, _⟩ => ⟨S1114112, .i1⟩
  | .hbm, ⟨23, _⟩ => ⟨S_, .i32⟩
  | .hbm, ⟨24, _⟩ => ⟨S1114112, .i32⟩
  | .hbm, ⟨25, _⟩ => ⟨S1114112, .i32⟩
  | .hbm, ⟨26, _⟩ => ⟨S1114112, .i32⟩
  | .hbm, ⟨27, _⟩ => ⟨S1114112x1, .i32⟩
  | .hbm, ⟨28, _⟩ => ⟨S1114112, .f32⟩
  | .hbm, ⟨29, _⟩ => ⟨S_, .f32⟩
  | .hbm, ⟨30, _⟩ => ⟨S1114112, .f32⟩
  | .hbm, ⟨31, _⟩ => ⟨S1114112, .f32⟩
  | .hbm, ⟨32, _⟩ => ⟨S_, .i32⟩
  | .hbm, ⟨33, _⟩ => ⟨S1114112, .i32⟩
  | .hbm, ⟨34, _⟩ => ⟨S1114112, .i1⟩
  | .hbm, ⟨35, _⟩ => ⟨S_, .i32⟩
  | .hbm, ⟨36, _⟩ => ⟨S1114112, .i32⟩
  | .hbm, ⟨37, _⟩ => ⟨S1114112, .i32⟩
  | .hbm, ⟨38, _⟩ => ⟨S1114112, .i32⟩
  | .hbm, ⟨39, _⟩ => ⟨S1114112x1, .i32⟩
  | .hbm, ⟨40, _⟩ => ⟨S1114112, .f32⟩
  | .hbm, ⟨41, _⟩ => ⟨S_, .f32⟩
  | .hbm, ⟨42, _⟩ => ⟨S1114112, .f32⟩
  | .hbm, ⟨43, _⟩ => ⟨S1114112, .f32⟩
  | .hbm, ⟨44, _⟩ => ⟨S1114112, .f32⟩
  | .hbm, ⟨45, _⟩ => ⟨S_, .i32⟩
  | .hbm, ⟨46, _⟩ => ⟨S1114112, .i32⟩
  | .hbm, ⟨47, _⟩ => ⟨S1114112, .i1⟩
  | .hbm, ⟨48, _⟩ => ⟨S_, .i32⟩
  | .hbm, ⟨49, _⟩ => ⟨S1114112, .i32⟩
  | .hbm, ⟨50, _⟩ => ⟨S1114112, .i32⟩
  | .hbm, ⟨51, _⟩ => ⟨S1114112, .i32⟩
  | .hbm, ⟨52, _⟩ => ⟨S1114112x1, .i32⟩
  | .hbm, ⟨53, _⟩ => ⟨S1114112x64, .f32⟩
  | .hbm, ⟨54, _⟩ => ⟨S1114112x1, .f32⟩
  | .hbm, ⟨55, _⟩ => ⟨S1114112x64, .f32⟩
  | .hbm, ⟨56, _⟩ => ⟨S1114112x64, .f32⟩
  | .hbm, ⟨57, _⟩ => ⟨S_, .f32⟩
  | .hbm, ⟨58, _⟩ => ⟨S65536x64, .f32⟩
  | .hbm, ⟨59, _⟩ => ⟨S1114112x1, .i32⟩
  | .hbm, ⟨60, _⟩ => ⟨S65536x64, .f32⟩
  | .hbm, ⟨61, _⟩ => ⟨S_, .f32⟩
  | .hbm, ⟨62, _⟩ => ⟨S65536x64, .f32⟩
  | .hbm, ⟨63, _⟩ => ⟨S65536x64, .f32⟩
  | .hbm, ⟨64, _⟩ => ⟨S_, .f32⟩
  | .hbm, ⟨65, _⟩ => ⟨S65536x64, .f32⟩
  | .hbm, ⟨66, _⟩ => ⟨S65536x64, .f32⟩
  | .hbm, ⟨67, _⟩ => ⟨S65536x64, .f32⟩
  | .hbm, ⟨68, _⟩ => ⟨S_, .f32⟩
  | .hbm, ⟨69, _⟩ => ⟨S65536x64, .f32⟩
  | .hbm, ⟨70, _⟩ => ⟨S65536x64, .f32⟩
  | .hbm, ⟨71, _⟩ => ⟨S65536x64, .f32⟩
  | .hbm, ⟨72, _⟩ => ⟨S_, .f32⟩
  | .hbm, ⟨73, _⟩ => ⟨S65536x64, .f32⟩
  | .hbm, ⟨74, _⟩ => ⟨S65536x64, .f32⟩
  | .hbm, ⟨75, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S65536x64_S64x64_S65536x64_1_0_0_1_n_n_wf : DotDims.WF S65536x64 S64x64 S65536x64 [1] [0] [0] [1] [] []

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf

class Facts : Prop extends Facts₀ where

variable [Facts]
-- ==== Proof.Update.lean ====
/-
  The dense update that follows the neighbourhood aggregation, as one function of its three arrays.

  For a row of aggregated features `a` and the same row of initial features `b` the mixed row is
  h = c₁·a + c₂·b (the residual connection), and the entry in column q of the updated row is
  c₃·h q + c₄·Σ_k h k · W k q (the identity mapping added to the product with the shared weight).  The
  four coefficients are the single-precision words both programs print for 1 − α, α, 1 − β and β; they
  are kept as words and never evaluated, the same word standing on both sides.  A row of the result
  depends on that row of the two feature arrays only, which is why the update can be computed one block
  of rows at a time.
-/
import Idealize.ShloMosaic.PureOps.Ideal
import Idealize.ShloMosaic.Lib.ValueIdx

noncomputable section

open Idealize.ShloMosaic Idealize.ShloMosaic.ValueIdx
open scoped BigOperators

namespace Cert.Update

/-- The word printed for 1 − α (α = 0.1), read as an extended real. -/
abbrev coefAgg : EReal := Ideal.ofBits .f32 0x3F666666#32
/-- The word printed for α. -/
abbrev coefInit : EReal := Ideal.ofBits .f32 0x3DCCCCCD#32
/-- The word printed for 1 − β (β = log 1.125). -/
abbrev coefSelf : EReal := Ideal.ofBits .f32 0x3F61D8F9#32
/-- The word printed for β. -/
abbrev coefProj : EReal := Ideal.ofBits .f32 0x3DF1383B#32

/-- The residual mix of one row: c₁·a + c₂·b, column by column. -/
def mixRow (a b : Fin 64 → EReal) : Fin 64 → EReal := fun k => coefAgg * a k + coefInit * b k

/-- Column `q` of the updated row, from the mixed row `h` and the weight matrix: c₃·h q + c₄·Σ_k h k · W k q. -/
def entry (h : Fin 64 → EReal) (w : (⟨2, ![64, 64]⟩ : Shape).Idx → EReal) (q : Fin 64) : EReal :=
  coefSelf * h q + coefProj * ∑ k : Fin 64, h k * w (ix2 k q)

/-- The updated features of all 65536 nodes: entry (r, q) is `entry` of row r's mix at column q. -/
def updated (agg x0 : (⟨2, ![65536, 64]⟩ : Shape).Idx → EReal) (w : (⟨2, ![64, 64]⟩ : Shape).Idx → EReal) :
    (⟨2, ![65536, 64]⟩ : Shape).Idx → EReal :=
  fun i => entry (mixRow (fun k => agg (ix2 (n0 := 65536) (i 0) k)) (fun k => x0 (ix2 (n0 := 65536) (i 0) k))) w (i 1)

/-- The update at an index given by its coordinates. -/
theorem updated_apply (agg x0 : (⟨2, ![65536, 64]⟩ : Shape).Idx → EReal) (w : (⟨2, ![64, 64]⟩ : Shape).Idx → EReal)
    (r : Fin 65536) (q : Fin 64) :
    updated agg x0 w (ix2 r q) = entry (mixRow (fun k => agg (ix2 r k)) (fun k => x0 (ix2 r k))) w q := rfl

end Cert.Update

end
-- ==== Proof.Body.lean ====
/-
  What the kernel body stores, read at an index.

  One grid step holds a block of 8192 rows of the aggregate and of the initial features and the whole
  64×64 weight.  It forms the mixed rows, rounds them and the weight to bfloat16 on the way into the
  matrix unit (no change of value on the extended reals), multiplies into a zero accumulator, and
  combines the mixed row with the product.  At row p and column q of the block this is exactly the
  update's `entry` of row p's mix: the matrix product into a zero accumulator is the plain sum over the
  one contracted axis of left (p, k) times right (k, q).
-/
import proofs.«146288_j62723702391588_1_alg».proof.Proof.Gen.KernelIdeal.Skeleton
import proofs.«146288_j62723702391588_1_alg».proof.Proof.Update
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- The block product's dimension numbers: rows of the left operand against columns of the right, one
    contracted axis of extent 64. -/
abbrev dims : DotDims S8192x64 S64x64 S8192x64 := dot_S8192x64_S64x64_S8192x64_1_0_0_1_n_n

theorem lhs_row (j : S8192x64.Idx) (s : dims.contr.Idx) : (dims.lhsIdx j s 0).val = (j 0).val := by
  unfold DotDims.lhsIdx
  rw [dif_neg (show ¬(0 : Fin S8192x64.rank) ∈ dims.lhsBatch by decide),
    dif_pos (show (0 : Fin S8192x64.rank) ∈ dims.lhsNonContracting by decide)]
  rfl
theorem lhs_col (j : S8192x64.Idx) (s : dims.contr.Idx) : (dims.lhsIdx j s 1).val = (s ⟨0, by decide⟩).val :=
  dims.lhsIdx_val_of_single rfl j s
theorem rhs_row (j : S8192x64.Idx) (s : dims.contr.Idx) : (dims.rhsIdx j s 0).val = (s ⟨0, by decide⟩).val :=
  dims.rhsIdx_val_of_single rfl j s
theorem rhs_col (j : S8192x64.Idx) (s : dims.contr.Idx) : (dims.rhsIdx j s 1).val = (j 1).val := by
  unfold DotDims.rhsIdx
  rw [dif_neg (show ¬(1 : Fin S64x64.rank) ∈ dims.rhsBatch by decide),
    dif_pos (show (1 : Fin S64x64.rank) ∈ dims.rhsNonContracting by decide)]
  rfl

/-- The block product into a zero accumulator, at row p and column q: Σ_k left (p, k) · right (k, q). -/
theorem product_apply (l : FVec Ideal S8192x64 .bf16) (r : FVec Ideal S64x64 .bf16) (p : Fin 8192) (q : Fin 64) :
    matmul dims none l r (constant (F := Ideal) S8192x64 .f32 0x00000000#32) (ix2 p q)
      = ∑ k : Fin 64, l (ix2 p k) * r (ix2 k q) := by
  show FloatOps.matmul dims none l r (constant (F := Ideal) S8192x64 .f32 0x00000000#32) (ix2 p q) = _
  rw [Ideal.matmul_constant_zero_apply, ← Equiv.sum_comp (contrEquiv1 dims 64 rfl rfl).symm]
  refine Finset.sum_congr rfl fun k _ => ?_
  have hk := contrEquiv1_symm_val dims 64 rfl rfl k
  have el : dims.lhsIdx (ix2 p q) ((contrEquiv1 dims 64 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 64 rfl rfl).symm k) = ix2 k q := funext fun a => Fin.ext (by
    match a with
    | ⟨0, _⟩ => exact (rhs_row _ _).trans hk
    | ⟨1, _⟩ => exact rhs_col _ _)
  rw [el, er]

/-- The stored value at row p, column q of the block is the update's entry of row p's mix. -/
theorem payload_apply (a b : FVec Ideal S8192x64 .f32) (w : FVec Ideal S64x64 .f32) (p : Fin 8192) (q : Fin 64) :
    k0_pay1 (F := Ideal) a b w (ix2 p q)
      = Cert.Update.entry (Cert.Update.mixRow (fun k => a (ix2 p k)) (fun k => b (ix2 p k))) w q := by
  unfold k0_pay1
  rw [shapeCast_self]
  refine (congrArg (fun z => Cert.Update.coefSelf * (Cert.Update.coefAgg * a (ix2 p q) + Cert.Update.coefInit * b (ix2 p q))
    + Cert.Update.coefProj * z) (product_apply _ _ p q)).trans ?_
  rfl

end Cert.KernelIdeal.Body

end
-- ==== Proof.Aggregate.lean ====
/-
  The normalised neighbourhood sum that both programs compute before the dense update.

  With self-loops appended to the edge list, the degree of a node is the number of edges that end in it
  (at least one), an edge from s to d carries the weight deg(d)^(-1/2) · deg(s)^(-1/2), and row v of the
  aggregate is the sum over the edges ending in v of weight · x[source].  The kernel's program and the
  reference spell this with the same chain of host operations (iota, slices, concatenations, two
  scatter-adds, three gathers, two powers), so the array the kernel's first window stages IS the
  reference's stage of the same name: the two terms differ only in which program's shape names and
  side-condition witnesses they mention.  The chain is never opened: it is carried as one function of
  the node features and of the edge list.
-/
import proofs.«146288_j62723702391588_1_alg».proof.Proof.Gen.KernelIdeal.Frame
import proofs.«146288_j62723702391588_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Aggregate

open Cert.KernelIdeal Cert.KernelIdeal.Gen

variable (m : (ℓ : Loc nD τ sig) → Buf (Elt Ideal) ℓ)

/-- The array the region finds behind its first window is the reference's aggregate of the launch
    contents of the node features (argument 0) and of the edge list (argument 3). -/
theorem staged_eq (c : Dev nD) :
    (V m c main_v44 : S65536x64.Idx → EReal)
      = Cert.ReferenceIdeal.Read.val_main_v44 (F := Ideal)
          (m ((c : Thread nD τ).loc main_arg0)) (m ((c : Thread nD τ).loc main_arg3)) := by
  dsimp only [Gen.V, Gen.hostOps0]
  after_results_simp
  rfl

end Cert.KernelIdeal.Aggregate

end
-- ==== Proof.Blocks.lean ====
/-
  From the eight blocks to the whole result array.

  The grid has eight steps; step t stages rows 8192·t … 8192·t + 8191 of the aggregate and of the
  initial features, the whole weight at every step, and writes back the same rows of the result.  Since
  a row of the update depends on that row of the two feature arrays only, what step t writes back is
  block t of ONE function of the three arrays as the region finds them — the update of Update.lean —,
  the eight blocks cover all 65536 rows, and so the result array ends holding that function.  The
  aggregate the region finds is the reference's aggregate stage (Aggregate.lean); the other two arrays
  are arguments no host operation writes.
-/
import proofs.«146288_j62723702391588_1_alg».proof.Proof.Gen.KernelIdeal.Value
import proofs.«146288_j62723702391588_1_alg».proof.Proof.Body
import proofs.«146288_j62723702391588_1_alg».proof.Proof.Aggregate
import proofs.«146288_j62723702391588_1_alg».proof.Proof.Update
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at step `t`: the two feature windows and the result window share the
    block row, every column index is 0, the weight's block is the whole matrix, and there are eight
    block rows. Decided over the eight steps. -/
theorem block_positions : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the eight block rows is some step's. -/
theorem block_row_onto : ∀ b : Fin 8, ∃ t : Fin cfg0.N, win0_3.index t = ![b.val, 0] :=
  (by decide +kernel : ∀ b : Fin 8, ∃ t : Fin grid0.N, win0_3.index t = ![b.val, 0])

/-- The update is computed row by row: if a block of rows `a`, `b` agrees with the arrays `A`, `B` on
    row p ↦ row r, and the staged weight with `W` on column q, then what the body stores at (p, q) is
    the update of the arrays at (r, q). -/
theorem stored_entry (A B : (⟨2, ![65536, 64]⟩ : Shape).Idx → EReal) (W : (⟨2, ![64, 64]⟩ : Shape).Idx → EReal)
    (a b : FVec Ideal S8192x64 .f32) (w : FVec Ideal S64x64 .f32) (p : Fin 8192) (q : Fin 64) (r : Fin 65536)
    (ha : ∀ k : Fin 64, a (ix2 p k) = A (ix2 r k)) (hb : ∀ k : Fin 64, b (ix2 p k) = B (ix2 r k))
    (hw : ∀ k : Fin 64, w (ix2 k q) = W (ix2 k q)) :
    k0_pay1 (F := Ideal) a b w (ix2 p q) = Cert.Update.updated A B W (ix2 r q) := by
  rw [Body.payload_apply, Cert.Update.updated_apply]
  unfold Cert.Update.entry Cert.Update.mixRow
  simp only [ha, hb, hw]

/-- The result array as one function of the arrays the region finds. -/
abbrev whole (c : Dev nD) : S65536x64.Idx → EReal :=
  Cert.Update.updated (V m c main_v44) (V m c main_arg1) (V m c main_arg2)

/-- What step `t` writes back is block `t` of `whole`. -/
theorem flushed_eq (c : Dev nD) (t : Fin cfg0.N) :
    (dats m 0 c).flushed 3 t = ((cfg0.win 3).blk t).view.read (Elt Ideal) (whole m c) := by
  rw [Cert.KernelIdeal.Value.flushed3]
  unfold out0_3
  rw [View.canon_unit_zero origin]
  simp only [View.ld_unit_zero (S := S8192x64) origin, View.ld_unit_zero (S := S64x64) origin]
  obtain ⟨e0, e1, e2, e3, e4, e5, e6, e7⟩ := block_positions t
  -- the stored block and the target array enter only through their values at an index
  generalize hX : k0_pay1 (F := Ideal) (iblk m c 0 t) (iblk m c 1 t) (iblk m c 2 t) = X
  generalize hG : whole m c = G
  funext j
  obtain ⟨p, q, rfl⟩ : ∃ (p : Fin 8192) (q : Fin 64), j = ix2 p q := ⟨j 0, j 1, eq_ix2 j⟩
  have hp : p.val < 8192 := p.isLt
  have hq : q.val < 64 := q.isLt
  have hrow : ((cfg0.win 3).blk t).view.emb (ix2 p q)
      = ix2 (⟨win0_3.index t (0 : Fin 2) * 8192 + p.val, by omega⟩ : Fin 65536) q := by
    funext a; apply Fin.ext
    match a with
    | ⟨0, _⟩ => show win0_3.index t (0 : Fin 2) * 8192 + 1 * p.val = win0_3.index t (0 : Fin 2) * 8192 + p.val; omega
    | ⟨1, _⟩ => show win0_3.index t (1 : Fin 2) * 64 + 1 * q.val = q.val; omega
  rw [View.read_apply, hrow, cast_eq]
  show X (ix2 p q) = _
  rw [← hX, ← hG]
  refine stored_entry (V m c main_v44) (V m c main_arg1) (V m c main_arg2) (iblk m c 0 t) (iblk m c 1 t) (iblk m c 2 t)
    p q _ (fun k => ?_) (fun k => ?_) (fun k => ?_)
  · have hk : k.val < 64 := k.isLt
    have h : ((cfg0.win 0).blk t).view.emb (ix2 p k)
        = ix2 (⟨win0_3.index t (0 : Fin 2) * 8192 + p.val, by omega⟩ : Fin 65536) k := by
      funext a; apply Fin.ext
      match a with
      | ⟨0, _⟩ => show win0_0.index t (0 : Fin 2) * 8192 + 1 * p.val = win0_3.index t (0 : Fin 2) * 8192 + p.val; omega
      | ⟨1, _⟩ => show win0_0.index t (1 : Fin 2) * 64 + 1 * k.val = k.val; omega
    unfold iblk
    rw [View.read_apply, h, cast_eq]
  · have hk : k.val < 64 := k.isLt
    have h : ((cfg0.win 1).blk t).view.emb (ix2 p k)
        = ix2 (⟨win0_3.index t (0 : Fin 2) * 8192 + p.val, by omega⟩ : Fin 65536) k := by
      funext a; apply Fin.ext
      match a with
      | ⟨0, _⟩ => show win0_1.index t (0 : Fin 2) * 8192 + 1 * p.val = win0_3.index t (0 : Fin 2) * 8192 + p.val; omega
      | ⟨1, _⟩ => show win0_1.index t (1 : Fin 2) * 64 + 1 * k.val = k.val; omega
    unfold iblk
    rw [View.read_apply, h, cast_eq]
  · have hk : k.val < 64 := k.isLt
    have h : ((cfg0.win 2).blk t).view.emb (ix2 k q) = ix2 k q := by
      funext a; apply Fin.ext
      match a with
      | ⟨0, _⟩ => show win0_2.index t (0 : Fin 2) * 64 + 1 * k.val = k.val; omega
      | ⟨1, _⟩ => show win0_2.index t (1 : Fin 2) * 64 + 1 * q.val = q.val; omega
    unfold iblk
    rw [View.read_apply, h, cast_eq]

/-- An index of the result array is in step `t`'s block iff each coordinate is in the block's range. -/
theorem mem_block (t : Fin cfg0.N) (i : S65536x64.Idx) :
    i ∈ ((cfg0.win 3).blk t).view.set ↔ ∀ a : Fin 2, win0_3.index t a * S8192x64.size a ≤ (i a).val
      ∧ (i a).val < win0_3.index t a * S8192x64.size a + S8192x64.size a := by
  show i ∈ ((View.whole main_v45).slice (win0_3.rect t)).set ↔ _
  rw [View.set_slice_whole, Rect.mem_set_unit]
  exact Iff.rfl

/-- Row r lies in the block of the step whose block row is r / 8192: the eight blocks cover the array. -/
theorem covered (i : S65536x64.Idx) :
    ∃ t : Fin cfg0.N, (cfg0.win 3).flush t = true ∧ i ∈ ((cfg0.win 3).blk t).view.set := by
  have hi0 : (i 0).val < 65536 := (i 0).isLt
  have hi1 : (i 1).val < 64 := (i 1).isLt
  obtain ⟨t, ht⟩ := block_row_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 64 ≤ (i 1).val ∧ (i 1).val < win0_3.index t (1 : Fin 2) * 64 + 64; omega

/-- So the result array ends holding `whole`. -/
theorem final (c : Dev nD) : (dats m 0 c).arrAt 3 cfg0.N = whole m c :=
  (dats m 0 c).arrAt_eq_of_cover 3 (whole m c) (fun t _ => flushed_eq m c t) covered

/-- The result in terms of the launch contents: the update of the reference's aggregate stage of the node
    features and the edge list, of the initial features and of the weight. -/
abbrev result (c : Dev nD) : S65536x64.Idx → EReal :=
  Cert.Update.updated
    (Cert.ReferenceIdeal.Read.val_main_v44 (F := Ideal) (m ((c : Thread nD τ).loc main_arg0)) (m ((c : Thread nD τ).loc main_arg3)))
    (m ((c : Thread nD τ).loc main_arg1)) (m ((c : Thread nD τ).loc main_arg2))

theorem whole_eq (c : Dev nD) : whole m c = result m c := by
  show Cert.Update.updated (V m c main_v44) (V m c main_arg1) (V m c main_arg2) = Cert.Update.updated _ _ _
  exact congr (congr (congrArg Cert.Update.updated (Aggregate.staged_eq m c)) (V_main_arg1 m c)) (V_main_arg2 m c)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (whole_eq m c)), (h c).2⟩)
    (Cert.KernelIdeal.Value.run_blocks m ρ)

end Cert.KernelIdeal.Blocks

end
-- ==== Proof.RefDense.lean ====
/-
  The reference's dense tail is the update of its own aggregate.

  After the aggregation the reference computes h = c₁·agg + c₂·x₀ with two broadcast constants, then
  c₃·h + c₄·(h · W) with a host matrix product.  Read index by index — each broadcast constant at its
  word, each product and sum at its operands, the matrix product as the sum over the contracted axis —
  entry (r, q) of the result is the update's `entry` of row r's mix at column q.
-/
import proofs.«146288_j62723702391588_1_alg».proof.Proof.Gen.ReferenceIdeal.Read
import proofs.«146288_j62723702391588_1_alg».proof.Proof.Update

noncomputable section

open Idealize.ShloMosaic Idealize.ShloMosaic.ValueIdx
open scoped BigOperators

namespace Cert.ReferenceIdeal.Dense

open Cert.ReferenceIdeal Cert.ReferenceIdeal.Read

/-- The left operand of the product at output (r, q) and contraction index k sits at (r, k) … -/
theorem lidx_eq (r : Fin 65536) (q k : Fin 64) : lidx_main_v52 (ix2 r q) k = ix2 r k :=
  funext fun a => Fin.ext (by match a with | ⟨0, _⟩ => rfl | ⟨1, _⟩ => rfl)
/-- … and the right operand at (k, q). -/
theorem ridx_eq (r : Fin 65536) (q k : Fin 64) : ridx_main_v52 (ix2 r q) k = ix2 k q :=
  funext fun a => Fin.ext (by match a with | ⟨0, _⟩ => rfl | ⟨1, _⟩ => rfl)

/-- The mixed features at an index: c₁ times the aggregate stage plus c₂ times the initial features there. -/
theorem mixed_apply (x0 x1 : (⟨S65536x64, .f32⟩ : BufTy).Contents (Elt Ideal)) (x3 : (⟨S2x1048576, .i32⟩ : BufTy).Contents (Elt Ideal))
    (j : S65536x64.Idx) :
    val_main_v49 (F := Ideal) x0 x1 x3 j
      = Cert.Update.coefAgg * val_main_v44 (F := Ideal) x0 x3 j + Cert.Update.coefInit * x1 j := by
  rw [val_main_v49_apply, val_main_v46_apply, val_main_v48_apply, val_main_v45_apply, val_main_v47_apply,
    val_main_cst_10_apply, val_main_cst_11_apply]
  -- the aggregate's entry is an arbitrary extended real from here on
  generalize val_main_v44 (F := Ideal) x0 x3 j = z
  rfl

/-- The reference's result, as a function of its four arguments, is the update applied to its aggregate
    stage, the initial features and the weight. -/
theorem result_eq (x0 x1 : (⟨S65536x64, .f32⟩ : BufTy).Contents (Elt Ideal)) (x2 : (⟨S64x64, .f32⟩ : BufTy).Contents (Elt Ideal))
    (x3 : (⟨S2x1048576, .i32⟩ : BufTy).Contents (Elt Ideal)) :
    val_main_v55 (F := Ideal) x0 x1 x2 x3 = Cert.Update.updated (val_main_v44 (F := Ideal) x0 x3) x1 x2 := by
  funext i
  obtain ⟨r, q, rfl⟩ : ∃ (r : Fin 65536) (q : Fin 64), i = ix2 r q := ⟨i 0, i 1, eq_ix2 i⟩
  rw [Cert.Update.updated_apply]
  rw [val_main_v55_apply, val_main_v54_apply, val_main_v51_apply, val_main_v52_apply, val_main_v50_apply, val_main_v53_apply,
    val_main_cst_12_apply, val_main_cst_13_apply]
  have hs : (∑ k : Fin 64, val_main_v49 (F := Ideal) x0 x1 x3 (lidx_main_v52 (ix2 r q) k) * x2 (ridx_main_v52 (ix2 r q) k))
      = ∑ k : Fin 64, (Cert.Update.coefAgg * val_main_v44 (F := Ideal) x0 x3 (ix2 r k) + Cert.Update.coefInit * x1 (ix2 r k))
          * x2 (ix2 k q) :=
    Finset.sum_congr rfl fun k _ => by rw [lidx_eq r q k, ridx_eq r q k, mixed_apply]
  rw [hs, mixed_apply]
  -- the aggregate is an arbitrary array from here on: nothing below looks inside it
  generalize val_main_v44 (F := Ideal) x0 x3 = A
  rfl

end Cert.ReferenceIdeal.Dense

end
-- ==== Proof.lean ====
/-
  A graph-convolution layer with initial residual and identity mapping: the normalised neighbourhood sum
  of the node features (self-loops added; an edge weighs deg(dst)^(-1/2) · deg(src)^(-1/2)), mixed with the
  initial features, then mixed with its own product by a shared 64×64 weight.

  Both programs compute the neighbourhood sum with the same chain of host operations.  The reference goes
  on with broadcast constants, products, sums and one host matrix product over all 65536 rows; the kernel
  hands the sum, the initial features and the weight to a grid of eight steps, each of which updates a
  block of 8192 rows (rounding to bfloat16 on the way into the matrix unit, which changes no value on the
  extended reals).  The update acts row by row, so the eight blocks are the eight restrictions of one
  function of the whole arrays, and that function is the reference's tail read index by index: the same
  four coefficient words, the same sum over the contracted axis in the same order.  No algebraic law is
  needed, and the finiteness of the inputs is never used.

    Update.lean     the update as one function of the aggregate, the initial features and the weight
    Body.lean       what one grid step stores, at an index
    Aggregate.lean  the array the kernel's first window stages is the reference's aggregate stage
    Blocks.lean     what each step writes back, the cover, the kernel's run read
    RefDense.lean   the reference's tail is the update of its aggregate stage
-/
import proofs.«146288_j62723702391588_1_alg».proof.Defs
import proofs.«146288_j62723702391588_1_alg».proof.Proof.Gen.Kernel
import proofs.«146288_j62723702391588_1_alg».proof.Proof.Gen.Kernel.Skeleton
import proofs.«146288_j62723702391588_1_alg».proof.Proof.Gen.Kernel.Launch
import proofs.«146288_j62723702391588_1_alg».proof.Proof.Gen.Kernel.Points
import proofs.«146288_j62723702391588_1_alg».proof.Proof.Gen.Kernel.Frame
import proofs.«146288_j62723702391588_1_alg».proof.Proof.Gen.KernelIdeal
import proofs.«146288_j62723702391588_1_alg».proof.Proof.Gen.KernelIdeal.Skeleton
import proofs.«146288_j62723702391588_1_alg».proof.Proof.Gen.KernelIdeal.Launch
import proofs.«146288_j62723702391588_1_alg».proof.Proof.Gen.KernelIdeal.Points
import proofs.«146288_j62723702391588_1_alg».proof.Proof.Gen.KernelIdeal.Frame
import proofs.«146288_j62723702391588_1_alg».proof.Proof.Gen.ReferenceIdeal
import proofs.«146288_j62723702391588_1_alg».proof.Proof.Gen.Pre_finite_inputs
import proofs.«146288_j62723702391588_1_alg».proof.Proof.Gen.KernelIdeal.Value
import proofs.«146288_j62723702391588_1_alg».proof.Proof.Gen.ReferenceIdeal.Run
import proofs.«146288_j62723702391588_1_alg».proof.Proof.Gen.ReferenceIdeal.Read
import proofs.«146288_j62723702391588_1_alg».proof.Proof.Blocks
import proofs.«146288_j62723702391588_1_alg».proof.Proof.RefDense
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- From memories that agree on the four arguments both programs end at the update of the same aggregate,
    the same initial features and the same weight. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.Dense.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
